-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x128 : Shape := ⟨2, ![48, 128]⟩
abbrev S128 : Shape := ⟨1, ![128]⟩
abbrev S128x128 : Shape := ⟨2, ![128, 128]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S100000x48 .f32) (main_arg1 : IVec S2x1600000 32) (main_arg2 : FVec F S48x128 .f32) (main_arg3 : FVec F S128 .f32) (main_arg4 : FVec F S128x128 .f32) (main_arg5 : FVec F S128 .f32) (main_arg6 : FVec F S128x128 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x128 .f32 := Host.absf main_arg2
  let main_cst_0 : FVec F S_ .f32 := constant S_ .f32 0x7F800000#32
  let main_v5 : FVec F S48x128 .f32 := broadcastInDim S48x128 ![] bcast_S_S48x128 main_cst_0
  let main_v6 : IVec S48x128 1 := cmpf .olt main_v4 main_v5
  let main_c_1 : IVec S_ 1 := constantI S_ 1 1#1
  let main_v7 : IVec S_ 1 := (fun x v => Host.reduce IntOp.andi x v reducesTo_S48x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x48 : Shape := ⟨2, ![100000, 48]⟩
abbrev S2x1600000 : Shape := ⟨2, ![2, 1600000]⟩
abbrev S48x128 : Shape := ⟨2, ![48, 128]⟩
abbrev S128 : Shape := ⟨1, ![128]⟩
abbrev S128x128 : Shape := ⟨2, ![128, 128]⟩
abbrev S1x128 : Shape := ⟨2, ![1, 128]⟩
abbrev S100000x128 : Shape := ⟨2, ![100000, 128]⟩
abbrev S5000x48 : Shape := ⟨2, ![5000, 48]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 40
  | .vmem => 15
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S100000x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .local _ .vmem, ⟨0, _⟩ => ⟨S5000x48, .f32⟩
  | .local _ .vmem, ⟨1, _⟩ => ⟨S5000x48, .f32⟩
  | .local _ .vmem, ⟨2, _⟩ => ⟨S48x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S5000x48_S5000x48_0_0 : ∀ a, (![0, 0] : Fin 2 → Nat) a + S5000x48.size a ≤ S5000x48.size a
  h_S5000x48 : 0 < S5000x48.numel
  bitsLt_bf16_f32 : FTy.bits .bf16 < FTy.bits .f32
  inb_S48x128_S48x128_0_0 : ∀ a, (![0, 0] : Fin 2 → Nat) a + S48x128.size a ≤ S48x128.size a
  h_S48x128 : 0 < S48x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x48_S48x128_S5000x128_1_0_0_1_n_n_wf : DotDims.WF S5000x48 S48x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x128.size a ≤ S48x128.size a
  hwx0_1 : ∀ i : grid0.Coords, EltTy.bits .f32 = 32 ∨ (Rect.block (s := S48x128) S48x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x48_S48x128_S5000x128_1_0_0_1_n_n : DotDims S5000x48 S48x128 S5000x128 where
  lhsContracting := [1]
  rhsContracting := [0]
  lhsNonContracting := [0]
  rhsNonContracting := [1]
  lhsBatch := []
  rhsBatch := []
  wf := dot_S5000x48_S48x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S48x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x128 : Shape := ⟨2, ![48, 128]⟩
abbrev S128 : Shape := ⟨1, ![128]⟩
abbrev S128x128 : Shape := ⟨2, ![128, 128]⟩
abbrev S100000x128 : Shape := ⟨2, ![100000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 49
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x48_S48x128_S100000x128_1_0_0_1_n_n_wf : DotDims.WF S100000x48 S48x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def dot_S100000x48_S48x128_S100000x128_1_0_0_1_n_n : DotDims S100000x48 S48x128 S100000x128 where
  lhsContracting := [1]
  rhsContracting := [0]
  lhsNonContracting := [0]
  rhsNonContracting := [1]
  lhsBatch := []
  rhsBatch := []
  wf := dot_S100000x48_S48x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its two result arrays named.

  The program is four stretches in a row: host operations, the first tiled kernel, host operations, the second tiled
  kernel.  The buffer contents at the end of the last stretch are a fold through the four (`Gen.W4`), and every
  execution ends with each buffer that outlives the kernels holding that fold's value.  Read at the two result buffers
  and at the seven arguments this is the run the value proof starts from: the results at the fold, the arguments as
  they were launched.
-/
import proofs.«103487_j69690139345316_1_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last boundary's contents and
    the arguments end as launched. -/
theorem run_named : θ_run defs (onTc (τ := τ) (main (F := F))) ⟨m, fun _ => 0, ρ⟩ (fun r => ∀ c : Dev nD,
      r.2.mem ((c.tc : Thread nD τ).loc main_v1) = W4 m ρ c (Proc.devRef .tc main_v1)
      ∧ r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v1 (by decide)),
       h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Outputs

end
-- ==== Proof.Spec.lean ====
/-
  The two dense layers of the network, entry by entry, over the extended reals.

  `linReluAt x W b r q` is entry `(r, q)` of `relu (x · W + b)`: the sum over the 48 input features of
  `x (r, k) · W (k, q)`, plus the bias `b (0, q)`, cut below at zero.  `combineAt a f Wl bl Wr r q` is entry `(r, q)` of
  `a · Wl + bl + f · Wr`, grouped as `(a · Wl + bl) + f · Wr`.  Both are stated for any number of rows, so that the
  same formula describes a block of rows and the whole array; the biases are one-row matrices.
-/
import Idealize.ShloMosaic.Lib.ValueIdx
import Idealize.ShloMosaic.PureOps.Ideal

noncomputable section

namespace Cert.Sage

open Idealize.ShloMosaic Idealize.ShloMosaic.ValueIdx

/-- Entry `(r, q)` of `relu (x · W + b)`. -/
def linReluAt {n : ℕ} (x : (⟨2, ![n, 48]⟩ : Shape).Idx → EReal) (W : (⟨2, ![48, 128]⟩ : Shape).Idx → EReal)
    (b : (⟨2, ![1, 128]⟩ : Shape).Idx → EReal) (r : Fin n) (q : Fin 128) : EReal :=
  max ((∑ k : Fin 48, x (ix2 r k) * W (ix2 k q)) + b (ix2 (0 : Fin 1) q)) 0

/-- `relu (x · W + b)` as an array of `n` rows. -/
def linRelu {n : ℕ} (x : (⟨2, ![n, 48]⟩ : Shape).Idx → EReal) (W : (⟨2, ![48, 128]⟩ : Shape).Idx → EReal)
    (b : (⟨2, ![1, 128]⟩ : Shape).Idx → EReal) : (⟨2, ![n, 128]⟩ : Shape).Idx → EReal :=
  fun i => linReluAt x W b (i 0) (i 1)

/-- Entry `(r, q)` of `(a · Wl + bl) + f · Wr`. -/
def combineAt {n : ℕ} (a f : (⟨2, ![n, 128]⟩ : Shape).Idx → EReal) (Wl : (⟨2, ![128, 128]⟩ : Shape).Idx → EReal)
    (bl : (⟨2, ![1, 128]⟩ : Shape).Idx → EReal) (Wr : (⟨2, ![128, 128]⟩ : Shape).Idx → EReal) (r : Fin n) (q : Fin 128) : EReal :=
  ((∑ k : Fin 128, a (ix2 r k) * Wl (ix2 k q)) + bl (ix2 (0 : Fin 1) q)) + ∑ k : Fin 128, f (ix2 r k) * Wr (ix2 k q)

/-- `(a · Wl + bl) + f · Wr` as an array of `n` rows. -/
def combine {n : ℕ} (a f : (⟨2, ![n, 128]⟩ : Shape).Idx → EReal) (Wl : (⟨2, ![128, 128]⟩ : Shape).Idx → EReal)
    (bl : (⟨2, ![1, 128]⟩ : Shape).Idx → EReal) (Wr : (⟨2, ![128, 128]⟩ : Shape).Idx → EReal) :
    (⟨2, ![n, 128]⟩ : Shape).Idx → EReal :=
  fun i => combineAt a f Wl bl Wr (i 0) (i 1)

end Cert.Sage

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.BodyValues.lean ====
/-
  What each kernel body computes from the blocks it loads, entry by entry.

  The first body multiplies a block of 5000 rows of `x` by the whole of `W_in`, adds the bias row to every row and
  cuts below at zero; the second multiplies a block of rows of the neighbourhood mean by `W_l`, adds the bias row,
  and adds the product of the same rows of the features with `W_r`.  Over the extended reals the change of float
  format before each product is the identity and a product into a zero accumulator is the plain sum, so entry
  `(p, q)` of either result is the corresponding dense-layer formula on the loaded blocks.
-/
import proofs.«103487_j69690139345316_1_alg».proof.Proof.Gen.KernelIdeal.Skeleton
import proofs.«103487_j69690139345316_1_alg».proof.Proof.Spec
import proofs.«103487_j69690139345316_1_alg».proof.Proof.LibPlainProduct
import proofs.«103487_j69690139345316_1_alg».proof.Proof.LibRowsProduct

noncomputable section

namespace Cert.KernelIdeal.BodyValues

open Cert.KernelIdeal Cert.KernelIdeal.Gen Idealize.ShloMosaic Idealize.ShloMosaic.ValueIdx

/-- Entry `(p, q)` of the first body's stored block is `relu (x · W + b)` at `(p, q)` of the loaded blocks. -/
theorem linear_relu_apply (x0 : Vec Ideal S5000x48 .f32) (x1 : Vec Ideal S48x128 .f32) (x2 : Vec Ideal S1x128 .f32)
    (p : Fin 5000) (q : Fin 128) :
    k0_pay1 x0 x1 x2 (ix2 p q) = Cert.Sage.linReluAt x0 x1 x2 p q := by
  unfold k0_pay1 Cert.Sage.linReluAt
  refine congrArg₂ max (congrArg₂ (· + ·) ?_ ?_) ?_
  · exact Cert.PlainProduct.matmul_nn_apply dot_S5000x48_S48x128_S5000x128_1_0_0_1_n_n.wf none _ _ p q
  · exact (Cert.RowsProduct.broadcastTo_1n_an_apply _ broadcasts_S1x128_S5000x128 p q).trans
      (congrFun (shapeCast_self x2 shapeCasts_S1x128_S1x128) _)
  · exact Ideal.ofBits_zero_f32

/-- Entry `(p, q)` of the second body's stored block is `(a · Wl + bl) + f · Wr` at `(p, q)` of the loaded blocks. -/
theorem combine_apply (a f : Vec Ideal S5000x128 .f32) (wl wr : Vec Ideal S128x128 .f32) (bl : Vec Ideal S1x128 .f32)
    (p : Fin 5000) (q : Fin 128) :
    k1_pay1 a f wl wr bl (ix2 p q) = Cert.Sage.combineAt a f wl bl wr p q := by
  unfold k1_pay1 Cert.Sage.combineAt
  refine congrArg₂ (· + ·) (congrArg₂ (· + ·) ?_ ?_) ?_
  · refine (Cert.PlainProduct.matmul_nn_apply dot_S5000x128_S128x128_S5000x128_1_0_0_1_n_n.wf none _ _ p q).trans ?_
    exact Finset.sum_congr rfl fun k _ =>
      congrArg (· * wl (ix2 k q)) (congrFun (shapeCast_self a shapeCasts_S5000x128_S5000x128) (ix2 p k))
  · exact (Cert.RowsProduct.broadcastTo_1n_an_apply _ broadcasts_S1x128_S5000x128 p q).trans
      (congrFun (shapeCast_self bl shapeCasts_S1x128_S1x128) _)
  · refine (Cert.PlainProduct.matmul_nn_apply dot_S5000x128_S128x128_S5000x128_1_0_0_1_n_n.wf none _ _ p q).trans ?_
    exact Finset.sum_congr rfl fun k _ =>
      congrArg (· * wr (ix2 k q)) (congrFun (shapeCast_self f shapeCasts_S5000x128_S5000x128) (ix2 p k))

end Cert.KernelIdeal.BodyValues

end
-- ==== Proof.Region0.lean ====
/-
  The feature array the first tiled kernel leaves: `relu (x · W_in + b_in)`, all 100000 rows.

  The kernel visits twenty blocks of 5000 rows.  At block `t` it loads rows `5000 t … 5000 t + 4999` of `x`, the whole
  weight matrix and the bias row, and writes rows `5000 t … 5000 t + 4999` of the result.  An entry of a result row
  depends only on the same row of `x`, so each written block is that block of the one whole-array function
  `Cert.Sage.linRelu`, and the twenty blocks cover every row.  Everything is stated at arbitrary contents `V` of the
  buffers when the kernel is entered.
-/
import proofs.«103487_j69690139345316_1_alg».proof.Proof.Gen.KernelIdeal.Frame
import proofs.«103487_j69690139345316_1_alg».proof.Proof.BodyValues
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole feature array, from the arrays the kernel reads. -/
def feat (c : Dev nD) : S100000x128.Idx → EReal :=
  Cert.Sage.linRelu (V c main_arg0 : S100000x48.Idx → EReal) (V c main_arg2 : S48x128.Idx → EReal) (V c main_v0 : S1x128.Idx → EReal)

/-- Block `t` of `x` and of the result starts at row block `t`; the weights and the bias are read whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of `x` at `t` is row `5000 t + p` of `x`. -/
theorem x_block (c : Dev nD) (t : Fin cfg0.N) (p : Fin 5000) (k : Fin 48) (r : Fin 100000) (hr : r.val = 5000 * t.val + p.val) :
    (iblk0 V c 0 t : S5000x48.Idx → EReal) (ix2 p k) = (V c main_arg0 : S100000x48.Idx → EReal) (ix2 r k) := by
  obtain ⟨e0, e1, -⟩ := idx_facts t
  unfold iblk0
  rw [View.read_apply]
  show (V c main_arg0 : S100000x48.Idx → EReal) _ = _
  refine congrArg (V c main_arg0 : S100000x48.Idx → EReal) ?_
  funext a
  apply Fin.ext
  match a with
  | ⟨0, _⟩ => show win0_0.index t (0 : Fin 2) * 5000 + 1 * p.val = r.val; rw [e0, hr]; omega
  | ⟨1, _⟩ => show win0_0.index t (1 : Fin 2) * 48 + 1 * k.val = k.val; rw [e1]; omega

/-- The weight block at any point is the whole weight matrix. -/
theorem w_block (c : Dev nD) (t : Fin cfg0.N) :
    (iblk0 V c 1 t : S48x128.Idx → EReal) = (V c main_arg2 : S48x128.Idx → EReal) := by
  obtain ⟨-, -, e2, e3, -⟩ := idx_facts t
  funext y
  unfold iblk0
  rw [View.read_apply]
  show (V c main_arg2 : S48x128.Idx → EReal) _ = _
  refine congrArg (V c main_arg2 : S48x128.Idx → EReal) ?_
  funext a
  apply Fin.ext
  match a with
  | ⟨0, _⟩ => show win0_1.index t (0 : Fin 2) * 48 + 1 * (y 0).val = (y 0).val; rw [e2]; omega
  | ⟨1, _⟩ => show win0_1.index t (1 : Fin 2) * 128 + 1 * (y 1).val = (y 1).val; rw [e3]; omega

/-- The bias block at any point is the whole bias row. -/
theorem b_block (c : Dev nD) (t : Fin cfg0.N) :
    (iblk0 V c 2 t : S1x128.Idx → EReal) = (V c main_v0 : S1x128.Idx → EReal) := by
  obtain ⟨-, -, -, -, e4, e5, -⟩ := idx_facts t
  funext y
  unfold iblk0
  rw [View.read_apply]
  show (V c main_v0 : S1x128.Idx → EReal) _ = _
  refine congrArg (V c main_v0 : S1x128.Idx → EReal) ?_
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- A block of rows of `relu (x · W + b)` computed from a block of rows of `x` is the same rows of the whole
    array's: entry `(r, q)` reads row `r` of `x` only. -/
theorem rows_of_whole (X : S100000x48.Idx → EReal) (W : S48x128.Idx → EReal) (B : S1x128.Idx → EReal)
    (x0 : S5000x48.Idx → EReal) (s : ℕ)
    (h0 : ∀ (p : Fin 5000) (k : Fin 48) (r : Fin 100000), r.val = 5000 * s + p.val → x0 (ix2 p k) = X (ix2 r k))
    (p : Fin 5000) (q : Fin 128) (r : Fin 100000) (hr : r.val = 5000 * s + p.val) :
    Cert.Sage.linReluAt x0 W B p q = Cert.Sage.linReluAt X W B r q := by
  unfold Cert.Sage.linReluAt
  refine congrArg (fun z => max (z + B (ix2 (0 : Fin 1) q)) 0) ?_
  exact Finset.sum_congr rfl fun k _ => congrArg (· * W (ix2 k q)) (h0 p k r hr)

/-- The body's result on blocks that are the rows `5000 s …` of `x`, the whole weights and the whole bias row is,
    entry by entry, the whole feature array at the same rows. -/
theorem block_value (X : S100000x48.Idx → EReal) (W : S48x128.Idx → EReal) (B : S1x128.Idx → EReal)
    (x0 : Vec Ideal S5000x48 .f32) (x1 : Vec Ideal S48x128 .f32) (x2 : Vec Ideal S1x128 .f32) (s : ℕ)
    (h0 : ∀ (p : Fin 5000) (k : Fin 48) (r : Fin 100000), r.val = 5000 * s + p.val → x0 (ix2 p k) = X (ix2 r k))
    (h1 : x1 = W) (h2 : x2 = B)
    (y : S5000x128.Idx) (i : S100000x128.Idx) (hi0 : (i 0).val = 5000 * s + (y 0).val) (hi1 : i 1 = y 1) :
    k0_pay1 (F := Ideal) x0 x1 x2 y = Cert.Sage.linRelu X W B i := by
  subst h1 h2
  obtain ⟨p, q, rfl⟩ : ∃ (p : Fin 5000) (q : Fin 128), y = ix2 p q := ⟨y 0, y 1, eq_ix2 y⟩
  refine (Cert.KernelIdeal.BodyValues.linear_relu_apply x0 x1 x2 p q).trans ?_
  unfold Cert.Sage.linRelu
  rw [hi1]
  exact rows_of_whole X x1 x2 x0 s h0 p q (i 0) hi0

/-- WHAT POINT `t` WRITES BACK is block `t` of the whole feature array. -/
theorem flushed_eq (c : Dev nD) (t : Fin cfg0.N) :
    (dat0 V c).flushed 3 t = ((cfg0.win 3).blk t).view.read (Elt Ideal) (feat V c) := by
  show (cfg0.win 3).cut (grid0.coords t) ((dat0 V c).after 3 t) = _
  rw [after0_3]
  unfold out0_3
  rw [View.canon_unit_zero hz]
  simp only [View.ld_unit_zero (S := S5000x48) hz, View.ld_unit_zero (S := S48x128) hz, View.ld_unit_zero (S := S1x128) hz]
  obtain ⟨-, -, -, -, -, -, e6, e7⟩ := idx_facts t
  funext j
  show k0_pay1 (iblk0 V c 0 t) (iblk0 V c 1 t) (iblk0 V c 2 t) j = feat V c (((cfg0.win 3).blk t).view.emb j)
  have hr0 : ((((cfg0.win 3).blk t).view.emb j : S100000x128.Idx) 0).val = 5000 * t.val + ((j : S5000x128.Idx) 0).val := by
    show win0_3.index t (0 : Fin 2) * 5000 + 1 * (j 0).val = _; rw [e6]; omega
  have hr1 : (((cfg0.win 3).blk t).view.emb j : S100000x128.Idx) 1 = (j : S5000x128.Idx) 1 := by
    apply Fin.ext
    show win0_3.index t (1 : Fin 2) * 128 + 1 * (j 1).val = (j 1).val; rw [e7]; omega
  exact block_value (V c main_arg0) (V c main_arg2) (V c main_v0) (iblk0 V c 0 t) (iblk0 V c 1 t) (iblk0 V c 2 t) t.val
    (fun p k r hr => x_block V c t p k r hr) (w_block V c t) (b_block V c t) j (((cfg0.win 3).blk t).view.emb j) hr0 hr1

/-- An index is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Row `r` lies in the block written at point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e6, e7⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- THE ARRAY after the twenty write-backs: the whole feature array. -/
theorem final (c : Dev nD) : (dat0 V c).arrAt 3 cfg0.N = feat V c :=
  (dat0 V c).arrAt_eq_of_cover 3 (feat V c) (fun t _ => flushed_eq V c t) (cover)

end Cert.KernelIdeal.Region0

end
-- ==== Proof.Region1.lean ====
/-
  The result array the second tiled kernel leaves: `(mean · W_l + b_l) + features · W_r`, all 100000 rows.

  The kernel visits twenty blocks of 5000 rows.  At block `t` it loads rows `5000 t … 5000 t + 4999` of the
  neighbourhood mean and of the features, both weight matrices and the bias row, and writes the same rows of the
  result.  An entry of a result row depends only on the same row of the two row-blocked operands, so each written
  block is that block of the one whole-array function `Cert.Sage.combine`, and the twenty blocks cover every row.
  Everything is stated at arbitrary contents `V` of the buffers when the kernel is entered.
-/
import proofs.«103487_j69690139345316_1_alg».proof.Proof.Gen.KernelIdeal.Frame
import proofs.«103487_j69690139345316_1_alg».proof.Proof.BodyValues
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole result array, from the arrays the kernel reads. -/
def out (c : Dev nD) : S100000x128.Idx → EReal :=
  Cert.Sage.combine (V c main_v24 : S100000x128.Idx → EReal) (V c main_v1 : S100000x128.Idx → EReal)
    (V c main_arg4 : S128x128.Idx → EReal) (V c main_v25 : S1x128.Idx → EReal) (V c main_arg6 : S128x128.Idx → EReal)

/-- Block `t` of the mean, of the features and of the result starts at row block `t`; the weights and the bias are
    read whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block of the mean at `t` is row `5000 t + p` of the mean. -/
theorem mean_block (c : Dev nD) (t : Fin cfg1.N) (p : Fin 5000) (k : Fin 128) (r : Fin 100000) (hr : r.val = 5000 * t.val + p.val) :
    (iblk1 V c 0 t : S5000x128.Idx → EReal) (ix2 p k) = (V c main_v24 : S100000x128.Idx → EReal) (ix2 r k) := by
  obtain ⟨e0, e1, -⟩ := idx_facts t
  unfold iblk1
  rw [View.read_apply]
  show (V c main_v24 : S100000x128.Idx → EReal) _ = _
  refine congrArg (V c main_v24 : S100000x128.Idx → EReal) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row `p` of the block of the features at `t` is row `5000 t + p` of the features. -/
theorem feat_block (c : Dev nD) (t : Fin cfg1.N) (p : Fin 5000) (k : Fin 128) (r : Fin 100000) (hr : r.val = 5000 * t.val + p.val) :
    (iblk1 V c 1 t : S5000x128.Idx → EReal) (ix2 p k) = (V c main_v1 : S100000x128.Idx → EReal) (ix2 r k) := by
  obtain ⟨-, -, e2, e3, -⟩ := idx_facts t
  unfold iblk1
  rw [View.read_apply]
  show (V c main_v1 : S100000x128.Idx → EReal) _ = _
  refine congrArg (V c main_v1 : S100000x128.Idx → EReal) ?_
  funext a
  apply Fin.ext
  match a with
  | ⟨0, _⟩ => show win1_1.index t (0 : Fin 2) * 5000 + 1 * p.val = r.val; rw [e2, hr]; omega
  | ⟨1, _⟩ => show win1_1.index t (1 : Fin 2) * 128 + 1 * k.val = k.val; rw [e3]; omega

/-- The block of `W_l` at any point is the whole matrix. -/
theorem wl_block (c : Dev nD) (t : Fin cfg1.N) :
    (iblk1 V c 2 t : S128x128.Idx → EReal) = (V c main_arg4 : S128x128.Idx → EReal) := by
  obtain ⟨-, -, -, -, e4, e5, -⟩ := idx_facts t
  funext y
  unfold iblk1
  rw [View.read_apply]
  show (V c main_arg4 : S128x128.Idx → EReal) _ = _
  refine congrArg (V c main_arg4 : S128x128.Idx → EReal) ?_
  funext a
  apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- The bias block at any point is the whole bias row. -/
theorem bl_block (c : Dev nD) (t : Fin cfg1.N) :
    (iblk1 V c 3 t : S1x128.Idx → EReal) = (V c main_v25 : S1x128.Idx → EReal) := by
  obtain ⟨-, -, -, -, -, -, e6, e7, -⟩ := idx_facts t
  funext y
  unfold iblk1
  rw [View.read_apply]
  show (V c main_v25 : S1x128.Idx → EReal) _ = _
  refine congrArg (V c main_v25 : S1x128.Idx → EReal) ?_
  funext a
  apply Fin.ext
  match a with
  | ⟨0, _⟩ => show win1_3.index t (0 : Fin 2) * 1 + 1 * (y 0).val = (y 0).val; rw [e6]; omega
  | ⟨1, _⟩ => show win1_3.index t (1 : Fin 2) * 128 + 1 * (y 1).val = (y 1).val; rw [e7]; omega

/-- The block of `W_r` at any point is the whole matrix. -/
theorem wr_block (c : Dev nD) (t : Fin cfg1.N) :
    (iblk1 V c 4 t : S128x128.Idx → EReal) = (V c main_arg6 : S128x128.Idx → EReal) := by
  obtain ⟨-, -, -, -, -, -, -, -, e8, e9, -⟩ := idx_facts t
  funext y
  unfold iblk1
  rw [View.read_apply]
  show (V c main_arg6 : S128x128.Idx → EReal) _ = _
  refine congrArg (V c main_arg6 : S128x128.Idx → EReal) ?_
  funext a
  apply Fin.ext
  match a with
  | ⟨0, _⟩ => show win1_4.index t (0 : Fin 2) * 128 + 1 * (y 0).val = (y 0).val; rw [e8]; omega
  | ⟨1, _⟩ => show win1_4.index t (1 : Fin 2) * 128 + 1 * (y 1).val = (y 1).val; rw [e9]; omega

/-- A block of rows of `(a · Wl + bl) + f · Wr` computed from blocks of rows of `a` and `f` is the same rows of
    the whole array's: entry `(r, q)` reads row `r` of `a` and of `f` only. -/
theorem rows_of_whole (A G : S100000x128.Idx → EReal) (Wl : S128x128.Idx → EReal) (Bl : S1x128.Idx → EReal)
    (Wr : S128x128.Idx → EReal) (a f : S5000x128.Idx → EReal) (s : ℕ)
    (ha : ∀ (p : Fin 5000) (k : Fin 128) (r : Fin 100000), r.val = 5000 * s + p.val → a (ix2 p k) = A (ix2 r k))
    (hf : ∀ (p : Fin 5000) (k : Fin 128) (r : Fin 100000), r.val = 5000 * s + p.val → f (ix2 p k) = G (ix2 r k))
    (p : Fin 5000) (q : Fin 128) (r : Fin 100000) (hr : r.val = 5000 * s + p.val) :
    Cert.Sage.combineAt a f Wl Bl Wr p q = Cert.Sage.combineAt A G Wl Bl Wr r q := by
  unfold Cert.Sage.combineAt
  refine congrArg₂ (fun z w => (z + Bl (ix2 (0 : Fin 1) q)) + w) ?_ ?_
  · exact Finset.sum_congr rfl fun k _ => congrArg (· * Wl (ix2 k q)) (ha p k r hr)
  · exact Finset.sum_congr rfl fun k _ => congrArg (· * Wr (ix2 k q)) (hf p k r hr)

/-- The body's result on blocks that are the rows `5000 s …` of the mean and of the features, the whole weights and
    the whole bias row is, entry by entry, the whole result array at the same rows. -/
theorem block_value (A G : S100000x128.Idx → EReal) (Wl : S128x128.Idx → EReal) (Bl : S1x128.Idx → EReal)
    (Wr : S128x128.Idx → EReal)
    (a f : Vec Ideal S5000x128 .f32) (wl : Vec Ideal S128x128 .f32) (bl : Vec Ideal S1x128 .f32) (wr : Vec Ideal S128x128 .f32) (s : ℕ)
    (ha : ∀ (p : Fin 5000) (k : Fin 128) (r : Fin 100000), r.val = 5000 * s + p.val → a (ix2 p k) = A (ix2 r k))
    (hf : ∀ (p : Fin 5000) (k : Fin 128) (r : Fin 100000), r.val = 5000 * s + p.val → f (ix2 p k) = G (ix2 r k))
    (h2 : wl = Wl) (h3 : bl = Bl) (h4 : wr = Wr)
    (y : S5000x128.Idx) (i : S100000x128.Idx) (hi0 : (i 0).val = 5000 * s + (y 0).val) (hi1 : i 1 = y 1) :
    k1_pay1 (F := Ideal) a f wl wr bl y = Cert.Sage.combine A G Wl Bl Wr i := by
  subst h2 h3 h4
  obtain ⟨p, q, rfl⟩ : ∃ (p : Fin 5000) (q : Fin 128), y = ix2 p q := ⟨y 0, y 1, eq_ix2 y⟩
  refine (Cert.KernelIdeal.BodyValues.combine_apply a f wl wr bl p q).trans ?_
  unfold Cert.Sage.combine
  rw [hi1]
  exact rows_of_whole A G wl bl wr a f s ha hf p q (i 0) hi0

/-- WHAT POINT `t` WRITES BACK is block `t` of the whole result array. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e10, e11⟩ := idx_facts t
  funext j
  show k1_pay1 (iblk1 V c 0 t) (iblk1 V c 1 t) (iblk1 V c 2 t) (iblk1 V c 4 t) (iblk1 V c 3 t) j
    = out V c (((cfg1.win 5).blk t).view.emb j)
  have hr0 : ((((cfg1.win 5).blk t).view.emb j : S100000x128.Idx) 0).val = 5000 * t.val + ((j : S5000x128.Idx) 0).val := by
    show win1_5.index t (0 : Fin 2) * 5000 + 1 * (j 0).val = _; rw [e10]; omega
  have hr1 : (((cfg1.win 5).blk t).view.emb j : S100000x128.Idx) 1 = (j : S5000x128.Idx) 1 := by
    apply Fin.ext
    show win1_5.index t (1 : Fin 2) * 128 + 1 * (j 1).val = (j 1).val; rw [e11]; omega
  exact block_value (V c main_v24) (V c main_v1) (V c main_arg4) (V c main_v25) (V c main_arg6)
    (iblk1 V c 0 t) (iblk1 V c 1 t) (iblk1 V c 2 t) (iblk1 V c 3 t) (iblk1 V c 4 t) t.val
    (fun p k r hr => mean_block V c t p k r hr) (fun p k r hr => feat_block V c t p k r hr)
    (wl_block V c t) (bl_block V c t) (wr_block V c t) j (((cfg1.win 5).blk t).view.emb j) hr0 hr1

/-- An index is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Row `r` lies in the block written at point `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e10, e11⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e11]; omega

/-- THE ARRAY after the twenty write-backs: the whole result array. -/
theorem final (c : Dev nD) : (dat1 V c).arrAt 5 cfg1.N = out V c :=
  (dat1 V c).arrAt_eq_of_cover 5 (out V c) (fun t _ => flushed_eq V c t) (cover)

end Cert.KernelIdeal.Region1

end
-- ==== Proof.RefValue.lean ====
/-
  The reference's two results as the dense-layer formulas.

  The reference computes the features as `relu (x · W_in + b_in)`, gathers the features of every edge's source node,
  adds them up at the edge's target node, divides by the target's degree (at least one), and returns
  `(mean · W_l + b_l) + features · W_r`.  Read entry by entry over the extended reals, the first result is
  `Cert.Sage.linRelu` and the second is `Cert.Sage.combine` of the neighbourhood mean and the features.  The chain of
  host operations between the two dense layers is kept as one function, `meanAgg`, of the feature array and the edge
  list: nothing about it is needed except that both programs apply it to equal arguments.
-/
import proofs.«103487_j69690139345316_1_alg».proof.Proof.Gen.ReferenceIdeal.Read
import proofs.«103487_j69690139345316_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

section Aggregation

variable {F : FTy → Type} [FloatOps F]

/-- The edges' source nodes: row 0 of the edge list, as a vector. -/
def sources (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edges' target nodes: row 1 of the edge list, as a vector. -/
def targets (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A node number counted from the end (negative) is counted from the start instead: `s + 100000` where `s < 0`. -/
def wrapped (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- For every node, the sum of the feature rows of the sources of the edges that point at it. -/
def neighbourSum (f : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (targets e))
    (Host.gather gather_S100000x128_S1600000x1_S1600000x128_1_0_n_n_0_1_1128 f
      (broadcastInDim S1600000x1 ![0] bcast_S1600000_S1600000x1_0 (wrapped (sources e))))

/-- For every node, the number of edges that point at it. -/
def degree (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (targets e))
    (broadcastInDim S1600000 ![] bcast_S_S1600000 (constant S_ .f32 0x3F800000#32))

/-- The neighbourhood mean: the neighbour sum divided, row by row, by the larger of the degree and one. -/
def meanAgg (f : (⟨S100000x128, .f32⟩ : BufTy).Contents (Elt F)) (e : (⟨S2x1600000, .i32⟩ : BufTy).Contents (Elt F)) :
    (⟨S100000x128, .f32⟩ : BufTy).Contents (Elt F) :=
  Host.divf (neighbourSum f e)
    (broadcastInDim S100000x128 ![0, 1] bcast_S100000x1_S100000x128_0_1
      (broadcastInDim S100000x1 ![0] bcast_S100000_S100000x1_0
        (maximumf (degree e) (broadcastInDim S100000 ![] bcast_S_S100000 (constant S_ .f32 0x3F800000#32)))))

/-- The reference's operand of its second dense layer is the neighbourhood mean of its features. -/
theorem mean_eq (x0 : (⟨S100000x48, .f32⟩ : BufTy).Contents (Elt F)) (x1 : (⟨S2x1600000, .i32⟩ : BufTy).Contents (Elt F))
    (x2 : (⟨S48x128, .f32⟩ : BufTy).Contents (Elt F)) (x3 : (⟨S128, .f32⟩ : BufTy).Contents (Elt F)) :
    val_main_v27 (F := F) x0 x1 x2 x3 = meanAgg (val_main_v4 (F := F) x0 x2 x3) x1 := rfl

end Aggregation

/-- A vector as a one-row matrix. -/
def rowOf (b : S128.Idx → EReal) : S1x128.Idx → EReal := fun i => b (ix1 (i 1))

/-- The reference's features are `relu (x · W_in + b_in)`. -/
theorem feat_eq (x0 : (⟨S100000x48, .f32⟩ : BufTy).Contents (Elt Ideal)) (x2 : (⟨S48x128, .f32⟩ : BufTy).Contents (Elt Ideal))
    (x3 : (⟨S128, .f32⟩ : BufTy).Contents (Elt Ideal)) :
    val_main_v4 (F := Ideal) x0 x2 x3 = Cert.Sage.linRelu x0 x2 (rowOf x3) := by
  funext i
  have hl : ∀ k : Fin 48, lidx_main_v0 i k = ix2 (i 0) k := fun k => funext fun a => Fin.ext (by
    match a with
    | ⟨0, _⟩ => rfl
    | ⟨1, _⟩ => rfl)
  have hr : ∀ k : Fin 48, ridx_main_v0 i k = ix2 k (i 1) := fun k => funext fun a => Fin.ext (by
    match a with
    | ⟨0, _⟩ => rfl
    | ⟨1, _⟩ => rfl)
  have hb : idx_main_v1 (idx_main_v2 i) = ix1 (i 1) := funext fun a => Fin.ext (by
    match a with
    | ⟨0, _⟩ => rfl)
  rw [val_main_v4_apply, val_main_v3_apply, val_main_v0_apply, val_main_v2_apply, val_main_v1_apply,
    val_main_call0_v0_apply, val_main_call0_cst_apply]
  simp only [hl, hr, hb]
  unfold Cert.Sage.linRelu Cert.Sage.linReluAt rowOf
  show max (_ + _) (Ideal.ofBits .f32 0x00000000#32) = max (_ + _) 0
  rw [Ideal.ofBits_zero_f32]
  rfl

/-- The reference's second result is `(mean · W_l + b_l) + features · W_r`. -/
theorem out_eq (x0 : (⟨S100000x48, .f32⟩ : BufTy).Contents (Elt Ideal)) (x1 : (⟨S2x1600000, .i32⟩ : BufTy).Contents (Elt Ideal))
    (x2 : (⟨S48x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) :
    val_main_v33 (F := Ideal) x0 x1 x2 x3 x4 x5 x6
      = Cert.Sage.combine (val_main_v27 (F := Ideal) x0 x1 x2 x3) (val_main_v4 (F := Ideal) x0 x2 x3) x4 (rowOf x5) x6 := by
  funext i
  have hl : ∀ k : Fin 128, lidx_main_v28 i k = ix2 (i 0) k := fun k => funext fun a => Fin.ext (by
    match a with
    | ⟨0, _⟩ => rfl
    | ⟨1, _⟩ => rfl)
  have hr : ∀ k : Fin 128, ridx_main_v28 i k = ix2 k (i 1) := fun k => funext fun a => Fin.ext (by
    match a with
    | ⟨0, _⟩ => rfl
    | ⟨1, _⟩ => rfl)
  have hl' : ∀ k : Fin 128, lidx_main_v32 i k = ix2 (i 0) k := fun k => funext fun a => Fin.ext (by
    match a with
    | ⟨0, _⟩ => rfl
    | ⟨1, _⟩ => rfl)
  have hr' : ∀ k : Fin 128, ridx_main_v32 i k = ix2 k (i 1) := fun k => funext fun a => Fin.ext (by
    match a with
    | ⟨0, _⟩ => rfl
    | ⟨1, _⟩ => rfl)
  have hb : idx_main_v29 (idx_main_v30 i) = ix1 (i 1) := funext fun a => Fin.ext (by
    match a with
    | ⟨0, _⟩ => rfl)
  rw [val_main_v33_apply, val_main_v31_apply, val_main_v28_apply, val_main_v30_apply, val_main_v29_apply, val_main_v32_apply]
  simp only [hl, hr, hl', hr', hb]
  generalize val_main_v27 (F := Ideal) x0 x1 x2 x3 = a
  generalize val_main_v4 (F := Ideal) x0 x2 x3 = f
  unfold Cert.Sage.combine Cert.Sage.combineAt rowOf
  rfl

end Cert.ReferenceIdeal.RefValue

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KernelValue.lean ====
/-
  The idealized kernel's two results as the dense-layer formulas of its arguments.

  The run's last boundary holds, at the first result, what the first tiled kernel wrote — nothing after it writes that
  buffer — and at the second result what the second tiled kernel wrote.  The first kernel reads `x`, `W_in` and the
  bias re-laid as a row by the one host operation before it, so it leaves `relu (x · W_in + b_in)`.  Between the
  kernels the host operations compute the neighbourhood mean of those features over the edge list and re-lay the
  second bias as a row; they write none of the buffers the second kernel reads besides.  So the second kernel leaves
  `(mean · W_l + b_l) + features · W_r`.  The chain of host operations between the kernels is, operation for
  operation, the reference's own, and is carried as the one function `meanAgg`.
-/
import proofs.«103487_j69690139345316_1_alg».proof.Proof.KernelRun
import proofs.«103487_j69690139345316_1_alg».proof.Proof.Region0
import proofs.«103487_j69690139345316_1_alg».proof.Proof.Region1
import proofs.«103487_j69690139345316_1_alg».proof.Proof.RefValue
import proofs.«103487_j69690139345316_1_alg».proof.Proof.LibBroadcast
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)
open Cert.ReferenceIdeal.RefValue (meanAgg rowOf)

/-! ## The host operations, at any contents of the buffers -/

section Host

variable (Wx : Valuation τ sig (Elt Ideal))

/-- Before the first kernel the bias vector is re-laid as a one-row matrix. -/
theorem bias0_read : StableHlo.after (hostOps0 (F := Ideal)) Wx (Proc.devRef .tc main_v0)
    = shapeCast S1x128 (Wx (Proc.devRef .tc main_arg3)) shapeCasts_S128_S1x128 := by
  after_results_simp <;> rfl
theorem keep0_arg0 : StableHlo.after (hostOps0 (F := Ideal)) Wx (Proc.devRef .tc main_arg0) = Wx (Proc.devRef .tc main_arg0) := by
  after_results_simp <;> rfl
theorem keep0_arg1 : StableHlo.after (hostOps0 (F := Ideal)) Wx (Proc.devRef .tc main_arg1) = Wx (Proc.devRef .tc main_arg1) := by
  after_results_simp <;> rfl
theorem keep0_arg2 : StableHlo.after (hostOps0 (F := Ideal)) Wx (Proc.devRef .tc main_arg2) = Wx (Proc.devRef .tc main_arg2) := by
  after_results_simp <;> rfl
theorem keep0_arg4 : StableHlo.after (hostOps0 (F := Ideal)) Wx (Proc.devRef .tc main_arg4) = Wx (Proc.devRef .tc main_arg4) := by
  after_results_simp <;> rfl
theorem keep0_arg5 : StableHlo.after (hostOps0 (F := Ideal)) Wx (Proc.devRef .tc main_arg5) = Wx (Proc.devRef .tc main_arg5) := by
  after_results_simp <;> rfl
theorem keep0_arg6 : StableHlo.after (hostOps0 (F := Ideal)) Wx (Proc.devRef .tc main_arg6) = Wx (Proc.devRef .tc main_arg6) := by
  after_results_simp <;> rfl

/-- Between the kernels the host computes the neighbourhood mean of the features over the edge list. -/
theorem mean_read : StableHlo.after (hostOps1 (F := Ideal)) Wx (Proc.devRef .tc main_v24)
    = meanAgg (F := Ideal) (Wx (Proc.devRef .tc main_v1)) (Wx (Proc.devRef .tc main_arg1)) := by
  after_results_simp
  rfl
/-- … and re-lays the second bias vector as a one-row matrix. -/
theorem bias1_read : StableHlo.after (hostOps1 (F := Ideal)) Wx (Proc.devRef .tc main_v25)
    = shapeCast S1x128 (Wx (Proc.devRef .tc main_arg5)) shapeCasts_S128_S1x128 := by
  after_results_simp <;> rfl
theorem keep1_v1 : StableHlo.after (hostOps1 (F := Ideal)) Wx (Proc.devRef .tc main_v1) = Wx (Proc.devRef .tc main_v1) := by
  after_results_simp <;> rfl
theorem keep1_arg4 : StableHlo.after (hostOps1 (F := Ideal)) Wx (Proc.devRef .tc main_arg4) = Wx (Proc.devRef .tc main_arg4) := by
  after_results_simp <;> rfl
theorem keep1_arg6 : StableHlo.after (hostOps1 (F := Ideal)) Wx (Proc.devRef .tc main_arg6) = Wx (Proc.devRef .tc main_arg6) := by
  after_results_simp <;> rfl

end Host

/-- A vector re-laid as a one-row matrix has the vector's entries along its row. -/
theorem row_eq (b : S128.Idx → EReal) : (shapeCast S1x128 b shapeCasts_S128_S1x128 : S1x128.Idx → EReal) = rowOf b := by
  funext i
  obtain ⟨z, q, rfl⟩ : ∃ (z : Fin 1) (q : Fin 128), i = ix2 z q := ⟨i 0, i 1, eq_ix2 i⟩
  obtain rfl : z = 0 := Subsingleton.elim _ _
  exact Cert.Layout.shapeCast_row_apply b shapeCasts_S128_S1x128 q

variable (m : (ℓ : Loc nD τ sig) → Buf (Elt Ideal) ℓ) (ρ : Dev nD → PrngReg)

/-- The features: `relu (x · W_in + b_in)` of the launch arguments. -/
def feats (c : Dev nD) : Buf (Elt Ideal) ((c : Thread nD τ).loc main_v1) :=
  Cert.Sage.linRelu (m ((c : Thread nD τ).loc main_arg0)) (m ((c : Thread nD τ).loc main_arg2)) (rowOf (m ((c : Thread nD τ).loc main_arg3)))

/-- The second result: `(mean · W_l + b_l) + features · W_r` of the launch arguments. -/
def outs (c : Dev nD) : Buf (Elt Ideal) ((c : Thread nD τ).loc main_v26) :=
  Cert.Sage.combine (meanAgg (F := Ideal) (feats m c) (m ((c : Thread nD τ).loc main_arg1))) (feats m c)
    (m ((c : Thread nD τ).loc main_arg4)) (rowOf (m ((c : Thread nD τ).loc main_arg5))) (m ((c : Thread nD τ).loc main_arg6))

/-! ## The boundaries' contents at the buffers the kernels read -/

theorem w1_arg0 (c : Dev nD) : W1 m ρ c (Proc.devRef .tc main_arg0) = m ((c : Thread nD τ).loc main_arg0) := keep0_arg0 (W0 m ρ c)
theorem w1_arg2 (c : Dev nD) : W1 m ρ c (Proc.devRef .tc main_arg2) = m ((c : Thread nD τ).loc main_arg2) := keep0_arg2 (W0 m ρ c)
theorem w1_v0 (c : Dev nD) : W1 m ρ c (Proc.devRef .tc main_v0) = rowOf (m ((c : Thread nD τ).loc main_arg3)) :=
  (bias0_read (W0 m ρ c)).trans (row_eq _)

/-- After the first kernel the feature buffer holds the features. -/
theorem w2_feat (c : Dev nD) : W2 m ρ c (Proc.devRef .tc main_v1) = feats m c := by
  refine (W2_arr m ρ c 3).trans ((Cert.KernelIdeal.Region0.final (V1 m ρ) c).trans ?_)
  unfold Cert.KernelIdeal.Region0.feat feats
  show Cert.Sage.linRelu (W1 m ρ c (Proc.devRef .tc main_arg0)) (W1 m ρ c (Proc.devRef .tc main_arg2)) (W1 m ρ c (Proc.devRef .tc main_v0)) = _
  rw [w1_arg0, w1_arg2, w1_v0]

theorem w2_arg1 (c : Dev nD) : W2 m ρ c (Proc.devRef .tc main_arg1) = m ((c : Thread nD τ).loc main_arg1) :=
  (W2_of_ne m ρ c main_arg1 (by decide)).trans (keep0_arg1 (W0 m ρ c))
theorem w2_arg4 (c : Dev nD) : W2 m ρ c (Proc.devRef .tc main_arg4) = m ((c : Thread nD τ).loc main_arg4) :=
  (W2_of_ne m ρ c main_arg4 (by decide)).trans (keep0_arg4 (W0 m ρ c))
theorem w2_arg5 (c : Dev nD) : W2 m ρ c (Proc.devRef .tc main_arg5) = m ((c : Thread nD τ).loc main_arg5) :=
  (W2_of_ne m ρ c main_arg5 (by decide)).trans (keep0_arg5 (W0 m ρ c))
theorem w2_arg6 (c : Dev nD) : W2 m ρ c (Proc.devRef .tc main_arg6) = m ((c : Thread nD τ).loc main_arg6) :=
  (W2_of_ne m ρ c main_arg6 (by decide)).trans (keep0_arg6 (W0 m ρ c))

theorem w3_feat (c : Dev nD) : W3 m ρ c (Proc.devRef .tc main_v1) = feats m c :=
  (keep1_v1 (W2 m ρ c)).trans (w2_feat m ρ c)
theorem w3_mean (c : Dev nD) : W3 m ρ c (Proc.devRef .tc main_v24)
    = meanAgg (F := Ideal) (feats m c) (m ((c : Thread nD τ).loc main_arg1)) := by
  refine (mean_read (W2 m ρ c)).trans ?_
  rw [w2_feat, w2_arg1]
theorem w3_arg4 (c : Dev nD) : W3 m ρ c (Proc.devRef .tc main_arg4) = m ((c : Thread nD τ).loc main_arg4) :=
  (keep1_arg4 (W2 m ρ c)).trans (w2_arg4 m ρ c)
theorem w3_arg6 (c : Dev nD) : W3 m ρ c (Proc.devRef .tc main_arg6) = m ((c : Thread nD τ).loc main_arg6) :=
  (keep1_arg6 (W2 m ρ c)).trans (w2_arg6 m ρ c)
theorem w3_bias (c : Dev nD) : W3 m ρ c (Proc.devRef .tc main_v25) = rowOf (m ((c : Thread nD τ).loc main_arg5)) := by
  refine (bias1_read (W2 m ρ c)).trans ?_
  rw [w2_arg5]
  exact row_eq _

/-! ## The two results at the last boundary -/

/-- The second kernel only reads the features, so the first result is still the features at the end. -/
theorem w4_feat (c : Dev nD) : W4 m ρ c (Proc.devRef .tc main_v1) = feats m c :=
  ((W4_arr m ρ c 1).trans (((dat1 (V3 m ρ) c).arrAt_in 1 rfl _).trans (A_eq1 (V3 m ρ) c 1))).trans (w3_feat m ρ c)

/-- The second result is what the second kernel wrote. -/
theorem w4_out (c : Dev nD) : W4 m ρ c (Proc.devRef .tc main_v26) = outs m c := by
  refine (W4_arr m ρ c 5).trans ((Cert.KernelIdeal.Region1.final (V3 m ρ) c).trans ?_)
  unfold Cert.KernelIdeal.Region1.out outs
  show Cert.Sage.combine (W3 m ρ c (Proc.devRef .tc main_v24)) (W3 m ρ c (Proc.devRef .tc main_v1))
    (W3 m ρ c (Proc.devRef .tc main_arg4)) (W3 m ρ c (Proc.devRef .tc main_v25)) (W3 m ρ c (Proc.devRef .tc main_arg6)) = _
  rw [w3_mean, w3_feat, w3_arg4, w3_bias, w3_arg6]

/-- THE RUN, READ: every execution ends with the two results at the dense-layer formulas of the arguments, the
    arguments unchanged. -/
theorem run : θ_run defs (onTc (τ := τ) (main (F := Ideal))) ⟨m, fun _ => 0, ρ⟩ (fun r => ∀ c : Dev nD,
      r.2.mem ((c.tc : Thread nD τ).loc main_v1) = feats m c
      ∧ r.2.mem ((c.tc : Thread nD τ).loc main_v26) = outs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (w4_feat m ρ c), (h c).2.1.trans (w4_out m ρ c), (h c).2.2⟩)
    (Cert.KernelIdeal.Outputs.run_named m ρ)

end Cert.KernelIdeal.Whole

end
-- ==== Proof.lean ====
/-
  A two-layer graph network: `features = relu (x · W_in + b_in)`, then for every node the mean of the features of the
  nodes with an edge into it, then `(mean · W_l + b_l) + features · W_r`.  The kernel computes the two dense layers in
  two tiled kernels of twenty row blocks each and the neighbourhood mean on the host between them; the reference
  computes everything on the host.

  Over the extended reals the two programs return the same two arrays.  A dense layer's entry `(r, q)` is a finite sum
  of products over one row of the left operand and one column of the right, whether it is taken block of rows by
  block of rows or at once; the change of float format before the kernel's products is the identity; and the host
  operations between the two layers are the same operations in both programs, applied to equal features and the same
  edge list.  No law beyond these is used, so the finiteness of the inputs is never opened.

  Each program terminates without a fault and leaves its arguments unchanged; the idealized kernel is the kernel's own
  text read over the extended reals, with nothing rewritten.
-/
import proofs.«103487_j69690139345316_1_alg».proof.Defs
import proofs.«103487_j69690139345316_1_alg».proof.Proof.Gen.Kernel
import proofs.«103487_j69690139345316_1_alg».proof.Proof.Gen.Kernel.Skeleton
import proofs.«103487_j69690139345316_1_alg».proof.Proof.Gen.Kernel.Launch
import proofs.«103487_j69690139345316_1_alg».proof.Proof.Gen.Kernel.Points
import proofs.«103487_j69690139345316_1_alg».proof.Proof.Gen.Kernel.Frame
import proofs.«103487_j69690139345316_1_alg».proof.Proof.Gen.KernelIdeal
import proofs.«103487_j69690139345316_1_alg».proof.Proof.Gen.KernelIdeal.Skeleton
import proofs.«103487_j69690139345316_1_alg».proof.Proof.Gen.KernelIdeal.Launch
import proofs.«103487_j69690139345316_1_alg».proof.Proof.Gen.KernelIdeal.Points
import proofs.«103487_j69690139345316_1_alg».proof.Proof.Gen.KernelIdeal.Frame
import proofs.«103487_j69690139345316_1_alg».proof.Proof.Gen.ReferenceIdeal
import proofs.«103487_j69690139345316_1_alg».proof.Proof.Gen.Pre_finite_inputs
import proofs.«103487_j69690139345316_1_alg».proof.Proof.Gen.ReferenceIdeal.Run
import proofs.«103487_j69690139345316_1_alg».proof.Proof.Gen.ReferenceIdeal.Read
import proofs.«103487_j69690139345316_1_alg».proof.Proof.KernelValue
import proofs.«103487_j69690139345316_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: it runs, and none of them writes an argument. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the features `relu (x · W_in + b_in)` and with
    `(mean · W_l + b_l) + features · W_r`, the mean taken by the same host operations of the same features and edges. -/
theorem algebraic : Cert.algebraic_KernelIdeal_ReferenceIdeal := by
  intro m ρ m' ρ' _ hagree
  refine ⟨fun c => Cert.KernelIdeal.Whole.feats m c, fun c => Cert.KernelIdeal.Whole.outs m c,
    Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.Read.val_main_v4_eq, Cert.ReferenceIdeal.RefValue.feat_eq, a0, a2, a3]
    rfl
  · rw [Cert.ReferenceIdeal.Read.val_main_v33_eq, Cert.ReferenceIdeal.RefValue.out_eq, Cert.ReferenceIdeal.RefValue.mean_eq,
      Cert.ReferenceIdeal.RefValue.feat_eq, a0, a1, a2, a3, a4, a5, a6]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
